-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S256x1 : Shape := ⟨2, ![256, 1]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S262144 .f32) (main_arg1 : FVec F S256x1 .f32) (main_arg2 : FVec F S256 .f32) (main_arg3 : FVec F S1024x256 .f32) (main_arg4 : FVec F S1024 .f32) : IVec S_ 1 :=
  let main_v0 : FVec F S262144 .f32 := Host.absf main_arg0
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S262144 : Shape := ⟨1, ![262144]⟩
abbrev S256x1 : Shape := ⟨2, ![256, 1]⟩
abbrev S256 : Shape := ⟨1, ![256]⟩
abbrev S1024x256 : Shape := ⟨2, ![1024, 256]⟩
abbrev S1024 : Shape := ⟨1, ![1024]⟩
abbrev S262144x1 : Shape := ⟨2, ![262144, 1]⟩
abbrev S1x256 : Shape := ⟨2, ![1, 256]⟩
abbrev S256x1024 : Shape := ⟨2, ![256, 1024]⟩
abbrev S1x1024 : Shape := ⟨2, ![1, 1024]⟩
abbrev S262144x1024 : Shape := ⟨2, ![262144, 1024]⟩
abbrev S2048x1 : Shape := ⟨2, ![2048, 1]⟩
abbrev S2048x1024 : Shape := ⟨2, ![2048, 1024]⟩
abbrev S2048x256 : Shape := ⟨2, ![2048, 256]⟩

abbrev nBuf : Space → Nat
  | .hbm => 12
  | .vmem => 8
  | .smem => 0
  | _ => 0

abbrev bufTy : (tb : Table) → Fin (tcTables nBuf tb) → BufTy
  | .hbm, ⟨0, _⟩ => ⟨S262144, .f32⟩
  | .hbm, ⟨1, _⟩ => ⟨S256x1, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S262144x1, .f32⟩
  | .hbm, ⟨6, _⟩ => ⟨S1x256, .f32⟩
  | .hbm, ⟨7, _⟩ => ⟨S1x256, .f32⟩
  | .hbm, ⟨8, _⟩ => ⟨S256x1024, .f32⟩
  | .hbm, ⟨9, _⟩ => ⟨S256x1024, .bf16⟩
  | .hbm, ⟨10, _⟩ => ⟨S1x1024, .f32⟩
  | .hbm, ⟨11, _⟩ => ⟨S262144x1024, .f32⟩
  | .local _ .vmem, ⟨0, _⟩ => ⟨S2048x1, .f32⟩
  | .local _ .vmem, ⟨1, _⟩ => ⟨S2048x1, .f32⟩
  | .local _ .vmem, ⟨2, _⟩ => ⟨S1x256, .f32⟩
  | .local _ .vmem, ⟨3, _⟩ => ⟨S1x256, .f32⟩
  | .local _ .vmem, ⟨4, _⟩ => ⟨S256x1024, .bf16⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S262144_S262144x1 : S262144.ShapeCasts S262144x1
  transposes_S256x1_S1x256_1_0 : S256x1.Transposes [1, 0] S1x256
  shapeCasts_S256_S1x256 : S256.ShapeCasts S1x256
  transposes_S1024x256_S256x1024_1_0 : S1024x256.Transposes [1, 0] S256x1024
  bitsLt_bf16_f32 : FTy.bits .bf16 < FTy.bits .f32
  shapeCasts_S1024_S1x1024 : S1024.ShapeCasts S1x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x256 : S2048x1.Broadcasts S2048x256
  broadcasts_S1x256_S2048x256 : S1x256.Broadcasts S2048x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S262144x1.size a
  hwx0_0 : ∀ i : grid0.Coords, EltTy.bits .f32 = 32 ∨ (Rect.block (s := S262144x1) S2048x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S262144x1024.size a
  hwx0_5 : ∀ i : grid0.Coords, EltTy.bits .f32 = 32 ∨ (Rect.block (s := S262144x1024) S2048x1024.size (cc0_transform_5 i) (hinb0_5 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144 : Shape := ⟨1, ![262144]⟩
abbrev S256x1 : Shape := ⟨2, ![256, 1]⟩
abbrev S256 : Shape := ⟨1, ![256]⟩
abbrev S1024x256 : Shape := ⟨2, ![1024, 256]⟩
abbrev S1024 : Shape := ⟨1, ![1024]⟩
abbrev S_ : Shape := ⟨0, ![]⟩
abbrev S262144x1 : Shape := ⟨2, ![262144, 1]⟩
abbrev S1x256 : Shape := ⟨2, ![1, 256]⟩
abbrev S262144x256 : Shape := ⟨2, ![262144, 256]⟩
abbrev S256x1024 : Shape := ⟨2, ![256, 1024]⟩
abbrev S262144x1024 : Shape := ⟨2, ![262144, 1024]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S262144, .f32⟩
  | .hbm, ⟨1, _⟩ => ⟨S256x1, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S_, .f32⟩
  | .hbm, ⟨6, _⟩ => ⟨S262144, .f32⟩
  | .hbm, ⟨7, _⟩ => ⟨S262144, .f32⟩
  | .hbm, ⟨8, _⟩ => ⟨S262144, .f32⟩
  | .hbm, ⟨9, _⟩ => ⟨S_, .f32⟩
  | .hbm, ⟨10, _⟩ => ⟨S262144, .f32⟩
  | .hbm, ⟨11, _⟩ => ⟨S262144, .f32⟩
  | .hbm, ⟨12, _⟩ => ⟨S262144x1, .f32⟩
  | .hbm, ⟨13, _⟩ => ⟨S1x256, .f32⟩
  | .hbm, ⟨14, _⟩ => ⟨S262144x256, .f32⟩
  | .hbm, ⟨15, _⟩ => ⟨S1x256, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S262144x256, .f32⟩
  | .hbm, ⟨21, _⟩ => ⟨S262144x256, .f32⟩
  | .hbm, ⟨22, _⟩ => ⟨S256x1024, .f32⟩
  | .hbm, ⟨23, _⟩ => ⟨S262144x1024, .f32⟩
  | .hbm, ⟨24, _⟩ => ⟨S1x1024, .f32⟩
  | .hbm, ⟨25, _⟩ => ⟨S262144x1024, .f32⟩
  | .hbm, ⟨26, _⟩ => ⟨S262144x1024, .f32⟩
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  transposes_S256x1_S1x256_1_0 : S256x1.Transposes [1, 0] S1x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S262144x1024_0_1 : S1x1024.BroadcastsInDim S262144x1024 (![0, 1] : Fin 2 → Fin S262144x1024.rank)
  dot_S262144x1_S1x256_S262144x256_1_0_0_1_n_n_wf : DotDims.WF S262144x1 S1x256 S262144x256 [1] [0] [0] [1] [] []
  dot_S262144x256_S256x1024_S262144x1024_1_0_0_1_n_n_wf : DotDims.WF S262144x256 S256x1024 S262144x1024 [1] [0] [0] [1] [] []

variable [Facts₀]

def dot_S262144x1_S1x256_S262144x256_1_0_0_1_n_n : DotDims S262144x1 S1x256 S262144x256 where
  lhsContracting := [1]
  rhsContracting := [0]
  lhsNonContracting := [0]
  rhsNonContracting := [1]
  lhsBatch := []
  rhsBatch := []
  wf := dot_S262144x1_S1x256_S262144x256_1_0_0_1_n_n_wf
def dot_S262144x256_S256x1024_S262144x1024_1_0_0_1_n_n : DotDims S262144x256 S256x1024 S262144x1024 where
  lhsContracting := [1]
  rhsContracting := [0]
  lhsNonContracting := [0]
  rhsNonContracting := [1]
  lhsBatch := []
  rhsBatch := []
  wf := dot_S262144x256_S256x1024_S262144x1024_1_0_0_1_n_n_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.Encoding.lean ====
/-
  The function both programs compute, written once over the exact (extended-real) values.

  A timestamp x is first rounded down to a multiple of the step s (the single-precision number nearest one tenth,
  taken at its exact binary value):  quantise x = floor(x / s) · s.  Hidden unit r of a timestamp is
  max(cos(quantise x · w1(r, 0) + b1(r)), 0), and entry (n, d) of the encoding is the sum over the 256 hidden units r
  of  hidden(n, r) · w3(d, r),  plus b4(d).  The sum is written as a row times the transposed weight matrix, so that a
  product taken block of rows by block of rows and a product taken whole read as the same expression.
-/
import proofs.«170090_j352187318328_2_alg».proof.Proof.LibRowDot

noncomputable section

namespace Cert.TimeEncoding

open Idealize.ShloMosaic Idealize.ShloMosaic.ValueIdx Cert.RowDot

/-- The quantisation step: the single-precision literal nearest 0.1, at its exact binary value. -/
def step : EReal := Ideal.ofBits .f32 0x3DCCCCCD#32

/-- A timestamp rounded down to a multiple of the step. -/
def quantise (x : EReal) : EReal := Ideal.liftRound Int.floor (Ideal.div x step) * step

/-- One hidden unit at quantised time τ with weight w and bias b: the rectified cosine of τ·w + b. -/
def hiddenUnit (τ w b : EReal) : EReal := max (Ideal.cos (τ * w + b)) (Ideal.ofBits .f32 0x00000000#32)

/-- The 256 hidden units of a timestamp x, from the reducing weights (a 256×1 matrix) and biases. -/
def hiddenRow (w1 : (⟨2, ![256, 1]⟩ : Shape).Idx → EReal) (b1 : (⟨1, ![256]⟩ : Shape).Idx → EReal) (x : EReal) :
    Fin 256 → EReal :=
  fun r => hiddenUnit (quantise x) (w1 (ix2 r (0 : Fin 1))) (b1 (ix1 r))

/-- The expanding weights (1024×256) transposed: entry (r, d) is w3(d, r). -/
def expandT (w3 : (⟨2, ![1024, 256]⟩ : Shape).Idx → EReal) : (⟨2, ![256, 1024]⟩ : Shape).Idx → EReal :=
  fun i => w3 (ix2 (i 1) (i 0))

/-- The encoding: entry (n, d) is the hidden row of timestamp n times column d of the transposed expanding weights,
    plus the expanding bias at d. -/
def encoding (t : (⟨1, ![262144]⟩ : Shape).Idx → EReal) (w1 : (⟨2, ![256, 1]⟩ : Shape).Idx → EReal)
    (b1 : (⟨1, ![256]⟩ : Shape).Idx → EReal) (w3 : (⟨2, ![1024, 256]⟩ : Shape).Idx → EReal)
    (b4 : (⟨1, ![1024]⟩ : Shape).Idx → EReal) : (⟨2, ![262144, 1024]⟩ : Shape).Idx → EReal :=
  fun j => rowDot (hiddenRow w1 b1 (t (ix1 (j 0)))) (expandT w3) (j 1) + b4 (ix1 (j 1))

end Cert.TimeEncoding

end
-- ==== Proof.LibKeepdims.lean ====
/-
  Two re-layings of a vector along a trailing unit axis, read one entry at a time.

  A vector of a entries reshaped to a column [a, 1] holds, at (i, 0), the vector's entry i; and a column [a, 1]
  broadcast across b columns holds, at (p, c), the column's entry p whatever c is.  Both are stated for every extent.
-/
import Idealize.ShloMosaic.Lib.ValueIdx
import Idealize.ShloMosaic.Lib.Pipeline.Value

namespace Cert.Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelBlock.lean ====
/-
  What the kernel's body stores, read one entry at a time.

  At one grid point the body holds 2048 timestamps as a column, the reducing weights and biases as rows of 256, the
  transposed expanding weights (256×1024) and the expanding bias as a row of 1024.  Entry (p, q) of what it stores is
  the row of 256 hidden units of timestamp p — each the rectified cosine of quantise(t p) · w(r) + b(r), the column
  and the two rows broadcast against each other — times column q of the transposed weights, plus the bias at q.  The
  product is taken into a zero accumulator, so it is the plain sum over the 256 hidden units.
-/
import proofs.«170090_j352187318328_2_alg».proof.Proof.Gen.KernelIdeal.Skeleton
import proofs.«170090_j352187318328_2_alg».proof.Proof.Encoding
import proofs.«170090_j352187318328_2_alg».proof.Proof.LibKeepdims
import Idealize.ShloMosaic.Lib.ValueLayout

noncomputable section

namespace Cert.KernelIdeal.Block

open Cert.KernelIdeal Cert.KernelIdeal.Gen Idealize.ShloMosaic Idealize.ShloMosaic.ValueIdx
open Cert.TimeEncoding Cert.RowDot Cert.Keepdims

/-- The body's product has the dimension numbers of a plain 2048×256 by 256×1024 product. -/
theorem dims_plain : dot_S2048x256_S256x1024_S2048x1024_1_0_0_1_n_n = DotDims.plain 2048 256 1024 := rfl

/-- The hidden unit r of the block's timestamp p, from the loaded column and rows. -/
def blockRow (x0 : Vec Ideal S2048x1 .f32) (x1 x2 : Vec Ideal S1x256 .f32) (p : Fin 2048) : Fin 256 → EReal :=
  fun r => hiddenUnit (quantise (x0 (ix2 p (0 : Fin 1)))) (x1 (ix2 (0 : Fin 1) r)) (x2 (ix2 (0 : Fin 1) r))

/-- Entry (p, q) of the stored value: the block's hidden row p times column q of the loaded weights, plus the bias. -/
theorem payload_apply (x0 : Vec Ideal S2048x1 .f32) (x1 x2 : Vec Ideal S1x256 .f32) (x3 : Vec Ideal S256x1024 .bf16)
    (x4 : Vec Ideal S1x1024 .f32) (p : Fin 2048) (q : Fin 1024) :
    k0_pay1 x0 x1 x2 x3 x4 (ix2 p q) = rowDot (blockRow x0 x1 x2 p) x3 q + x4 (ix2 (0 : Fin 1) q) := by
  unfold k0_pay1
  simp only [shapeCast_self]
  refine (addf_apply _ _ _).trans ?_
  refine congrArg₂ (fun a b : EReal => a + b) ?_ ?_
  · refine (matmul_plain_zero_apply none _ _ (ix2 p q)).trans ?_
    refine congrArg (fun row : Fin 256 → EReal => rowDot row x3 q) (funext fun r => ?_)
    show max (Ideal.cos (broadcastTo S2048x256 _ _ (ix2 p r) * broadcastTo S2048x256 _ _ (ix2 p r)
      + broadcastTo S2048x256 _ _ (ix2 p r))) _ = _
    rw [broadcastTo_a1_ab_apply, broadcastTo_1b_ab_apply, broadcastTo_1b_ab_apply]
    rfl
  · exact broadcastTo_1b_ab_apply _ _ p q

end Cert.KernelIdeal.Block

end
-- ==== Proof.KernelValue.lean ====
/-
  The kernel's result array is the encoding of its arguments.

  The grid has 128 points; point t handles timestamps 2048·t … 2048·t + 2047 and writes rows 2048·t … 2048·t + 2047 of
  the result, all 1024 columns.  Before the region the host lays the timestamps out as a column, the reducing weights
  (transposed) and biases as one row each, the expanding weights transposed, and the expanding bias as one row; so the
  column block of point t holds timestamp 2048·t + p at row p, and the four other blocks are the whole re-laid arrays.
  Entry (p, q) of what point t stores is therefore entry (2048·t + p, q) of the encoding, and since every row lies in
  exactly the block of point (row / 2048), the whole array ends at the encoding.
-/
import proofs.«170090_j352187318328_2_alg».proof.Proof.Gen.KernelIdeal.Value
import proofs.«170090_j352187318328_2_alg».proof.Proof.KernelBlock
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.TimeEncoding Cert.RowDot Cert.Keepdims Cert.KernelIdeal.Block

variable (m : (ℓ : Loc nD τ sig) → Buf (Elt Ideal) ℓ) (ρ : Dev nD → PrngReg)

/-- The encoding of the five argument arrays as launched. -/
abbrev result (c : Dev nD) : S262144x1024.Idx → EReal :=
  encoding (m ((c : Thread nD τ).loc main_arg0)) (m ((c : Thread nD τ).loc main_arg1)) (m ((c : Thread nD τ).loc main_arg2))
    (m ((c : Thread nD τ).loc main_arg3)) (m ((c : Thread nD τ).loc main_arg4))

/-! ## The arrays the region finds, read at an entry -/

/-- The timestamps as a column: entry (n, 0) is timestamp n. -/
theorem times_col (c : Dev nD) (n : Fin 262144) :
    (V m c main_v0 : S262144x1.Idx → EReal) (ix2 n (0 : Fin 1)) = m ((c : Thread nD τ).loc main_arg0) (ix1 n) := by
  have e : (V m c main_v0 : S262144x1.Idx → EReal)
      = shapeCast S262144x1 (m ((c : Thread nD τ).loc main_arg0)) shapeCasts_S262144_S262144x1 := by
    dsimp only [Gen.V, Gen.hostOps0]; after_results <;> rfl
  rw [e]; exact shapeCast_a_a1_apply _ _ n 0

/-- The reducing weights as a row: entry (0, r) is w1(r, 0). -/
theorem reduce_w_row (c : Dev nD) (r : Fin 256) :
    (V m c main_v1 : S1x256.Idx → EReal) (ix2 (0 : Fin 1) r) = m ((c : Thread nD τ).loc main_arg1) (ix2 r (0 : Fin 1)) := by
  have e : (V m c main_v1 : S1x256.Idx → EReal)
      = transpose S1x256 [1, 0] (m ((c : Thread nD τ).loc main_arg1)) transposes_S256x1_S1x256_1_0 := by
    dsimp only [Gen.V, Gen.hostOps0]; after_results <;> rfl
  rw [e]; exact transpose_ix2_apply _ _ 0 r

/-- The reducing biases as a row: entry (0, r) is b1(r). -/
theorem reduce_b_row (c : Dev nD) (r : Fin 256) :
    (V m c main_v2 : S1x256.Idx → EReal) (ix2 (0 : Fin 1) r) = m ((c : Thread nD τ).loc main_arg2) (ix1 r) := by
  have e : (V m c main_v2 : S1x256.Idx → EReal)
      = shapeCast S1x256 (m ((c : Thread nD τ).loc main_arg2)) shapeCasts_S256_S1x256 := by
    dsimp only [Gen.V, Gen.hostOps0]; after_results <;> rfl
  rw [e]; exact shapeCast_a_1a_apply _ _ 0 r

/-- The expanding weights transposed (the change of float format is the identity): entry (r, d) is w3(d, r). -/
theorem expand_w_T (c : Dev nD) (r : Fin 256) (d : Fin 1024) :
    (V m c main_v4 : S256x1024.Idx → EReal) (ix2 r d) = m ((c : Thread nD τ).loc main_arg3) (ix2 d r) := by
  have e : (V m c main_v4 : S256x1024.Idx → EReal)
      = truncf (F := Ideal) .bf16 (transpose S256x1024 [1, 0] (m ((c : Thread nD τ).loc main_arg3)) transposes_S1024x256_S256x1024_1_0) bitsLt_bf16_f32 := by
    dsimp only [Gen.V, Gen.hostOps0]; after_results <;> rfl
  rw [e]; exact transpose_ix2_apply (m ((c : Thread nD τ).loc main_arg3)) transposes_S1024x256_S256x1024_1_0 r d

/-- The expanding biases as a row: entry (0, d) is b4(d). -/
theorem expand_b_row (c : Dev nD) (d : Fin 1024) :
    (V m c main_v5 : S1x1024.Idx → EReal) (ix2 (0 : Fin 1) d) = m ((c : Thread nD τ).loc main_arg4) (ix1 d) := by
  have e : (V m c main_v5 : S1x1024.Idx → EReal)
      = shapeCast S1x1024 (m ((c : Thread nD τ).loc main_arg4)) shapeCasts_S1024_S1x1024 := by
    dsimp only [Gen.V, Gen.hostOps0]; after_results <;> rfl
  rw [e]; exact shapeCast_a_1a_apply _ _ 0 d

/-! ## The blocks at a grid point -/

/-- The block indices of the six windows, decided over the 128 points: the column of timestamps and the result
    move down one block per point; the other four windows stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 128 := by
  have h := t.isLt; have hN : cfg0.N = 128 := N_0; omega

/-- Row p of point t's block is row 2048·t + p of the array. -/
def rowAt (t : Fin cfg0.N) (p : Fin 2048) : Fin 262144 :=
  ⟨t.val * 2048 + p.val, by have := point_lt t; have := p.isLt; omega⟩

/-- Point t's block of the timestamp column holds timestamp 2048·t + p at row p. -/
theorem blk_times (c : Dev nD) (t : Fin cfg0.N) (p : Fin 2048) :
    (iblk m c 0 t : S2048x1.Idx → EReal) (ix2 p (0 : Fin 1)) = m ((c : Thread nD τ).loc main_arg0) (ix1 (rowAt t p)) := by
  obtain ⟨f00, f01, -⟩ := block_indices t
  show (V m c main_v0 : S262144x1.Idx → EReal) (((cfg0.win 0).blk t).view.emb (ix2 p (0 : Fin 1))) = _
  have he : ((cfg0.win 0).blk t).view.emb (ix2 p (0 : Fin 1)) = ix2 (rowAt t p) (0 : Fin 1) := by
    funext a; apply Fin.ext
    match a with
    | ⟨0, _⟩ => show win0_0.index t (0 : Fin 2) * 2048 + 1 * p.val = t.val * 2048 + p.val; rw [f00]; omega
    | ⟨1, _⟩ => show win0_0.index t (1 : Fin 2) * 1 + 1 * 0 = 0; rw [f01]
  rw [he]; exact times_col m c _

/-- The block of the reducing weights is the whole row. -/
theorem blk_reduce_w (c : Dev nD) (t : Fin cfg0.N) (r : Fin 256) :
    (iblk m c 1 t : S1x256.Idx → EReal) (ix2 (0 : Fin 1) r) = m ((c : Thread nD τ).loc main_arg1) (ix2 r (0 : Fin 1)) := by
  obtain ⟨-, -, f10, f11, -⟩ := block_indices t
  show (V m c main_v1 : S1x256.Idx → EReal) (((cfg0.win 1).blk t).view.emb (ix2 (0 : Fin 1) r)) = _
  have he : ((cfg0.win 1).blk t).view.emb (ix2 (0 : Fin 1) r) = ix2 (0 : Fin 1) r := by
    funext a; apply Fin.ext
    match a with
    | ⟨0, _⟩ => show win0_1.index t (0 : Fin 2) * 1 + 1 * 0 = 0; rw [f10]
    | ⟨1, _⟩ => show win0_1.index t (1 : Fin 2) * 256 + 1 * r.val = r.val; rw [f11]; omega
  rw [he]; exact reduce_w_row m c r

/-- The block of the reducing biases is the whole row. -/
theorem blk_reduce_b (c : Dev nD) (t : Fin cfg0.N) (r : Fin 256) :
    (iblk m c 2 t : S1x256.Idx → EReal) (ix2 (0 : Fin 1) r) = m ((c : Thread nD τ).loc main_arg2) (ix1 r) := by
  obtain ⟨-, -, -, -, f20, f21, -⟩ := block_indices t
  show (V m c main_v2 : S1x256.Idx → EReal) (((cfg0.win 2).blk t).view.emb (ix2 (0 : Fin 1) r)) = _
  have he : ((cfg0.win 2).blk t).view.emb (ix2 (0 : Fin 1) r) = ix2 (0 : Fin 1) r := by
    funext a; apply Fin.ext
    match a with
    | ⟨0, _⟩ => show win0_2.index t (0 : Fin 2) * 1 + 1 * 0 = 0; rw [f20]
    | ⟨1, _⟩ => show win0_2.index t (1 : Fin 2) * 256 + 1 * r.val = r.val; rw [f21]; omega
  rw [he]; exact reduce_b_row m c r

/-- The block of the transposed expanding weights is the whole matrix. -/
theorem blk_expand_w (c : Dev nD) (t : Fin cfg0.N) (r : Fin 256) (d : Fin 1024) :
    (iblk m c 3 t : S256x1024.Idx → EReal) (ix2 r d) = m ((c : Thread nD τ).loc main_arg3) (ix2 d r) := by
  obtain ⟨-, -, -, -, -, -, f30, f31, -⟩ := block_indices t
  show (V m c main_v4 : S256x1024.Idx → EReal) (((cfg0.win 3).blk t).view.emb (ix2 r d)) = _
  have he : ((cfg0.win 3).blk t).view.emb (ix2 r d) = ix2 r d := by
    funext a; apply Fin.ext
    match a with
    | ⟨0, _⟩ => show win0_3.index t (0 : Fin 2) * 256 + 1 * r.val = r.val; rw [f30]; omega
    | ⟨1, _⟩ => show win0_3.index t (1 : Fin 2) * 1024 + 1 * d.val = d.val; rw [f31]; omega
  rw [he]; exact expand_w_T m c r d

/-- The block of the expanding biases is the whole row. -/
theorem blk_expand_b (c : Dev nD) (t : Fin cfg0.N) (d : Fin 1024) :
    (iblk m c 4 t : S1x1024.Idx → EReal) (ix2 (0 : Fin 1) d) = m ((c : Thread nD τ).loc main_arg4) (ix1 d) := by
  obtain ⟨-, -, -, -, -, -, -, -, f40, f41, -⟩ := block_indices t
  show (V m c main_v5 : S1x1024.Idx → EReal) (((cfg0.win 4).blk t).view.emb (ix2 (0 : Fin 1) d)) = _
  have he : ((cfg0.win 4).blk t).view.emb (ix2 (0 : Fin 1) d) = ix2 (0 : Fin 1) d := by
    funext a; apply Fin.ext
    match a with
    | ⟨0, _⟩ => show win0_4.index t (0 : Fin 2) * 1 + 1 * 0 = 0; rw [f40]
    | ⟨1, _⟩ => show win0_4.index t (1 : Fin 2) * 1024 + 1 * d.val = d.val; rw [f41]; omega
  rw [he]; exact expand_b_row m c d

/-! ## One stored entry is one entry of the encoding -/

/-- If a column block holds timestamp n at row p, and the four other blocks are the re-laid weights and biases, then
    entry (p, q) of what the body stores is entry (n, q) of the encoding. -/
theorem entry_eq (a0 : (⟨1, ![262144]⟩ : Shape).Idx → EReal) (a1 : (⟨2, ![256, 1]⟩ : Shape).Idx → EReal)
    (a2 : (⟨1, ![256]⟩ : Shape).Idx → EReal) (a3 : (⟨2, ![1024, 256]⟩ : Shape).Idx → EReal)
    (a4 : (⟨1, ![1024]⟩ : Shape).Idx → EReal)
    (x0 : Vec Ideal S2048x1 .f32) (x1 x2 : Vec Ideal S1x256 .f32) (x3 : Vec Ideal S256x1024 .bf16)
    (x4 : Vec Ideal S1x1024 .f32) (p : Fin 2048) (q : Fin 1024) (n : Fin 262144)
    (h0 : x0 (ix2 p (0 : Fin 1)) = a0 (ix1 n))
    (h1 : ∀ r : Fin 256, x1 (ix2 (0 : Fin 1) r) = a1 (ix2 r (0 : Fin 1)))
    (h2 : ∀ r : Fin 256, x2 (ix2 (0 : Fin 1) r) = a2 (ix1 r))
    (h3 : ∀ r : Fin 256, x3 (ix2 r q) = a3 (ix2 q r))
    (h4 : x4 (ix2 (0 : Fin 1) q) = a4 (ix1 q)) :
    k0_pay1 x0 x1 x2 x3 x4 (ix2 p q) = encoding a0 a1 a2 a3 a4 (ix2 n q) := by
  rw [payload_apply]
  unfold encoding rowDot
  refine congrArg₂ (fun a b : EReal => a + b) (Finset.sum_congr rfl fun k _ => ?_) h4
  unfold blockRow hiddenRow expandT
  rw [h0, h1 k, h2 k, h3 k]

end Cert.KernelIdeal.Whole

end
-- ==== Proof.KernelRun.lean ====
/-
  The kernel's run, with its result array named: it ends holding the encoding of the arguments.

  What grid point t writes back is the block of rows 2048·t … 2048·t + 2047 of the encoding (entry by entry, from the
  block reads), every row of the result lies in the block of point (row / 2048), and every point writes back; so after
  the run the result array is the encoding, and the arguments are as launched.
-/
import proofs.«170090_j352187318328_2_alg».proof.Proof.KernelValue

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.TimeEncoding Cert.KernelIdeal.Block

variable (m : (ℓ : Loc nD τ sig) → Buf (Elt Ideal) ℓ) (ρ : Dev nD → PrngReg)

theorem zero_offsets : (![0, 0] : Fin 2 → Nat) = fun _ => 0 := funext fun a => by fin_cases a <;> rfl

/-- What point t writes back is its block of rows of the encoding. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero_offsets]
  simp only [View.ld_unit_zero (S := S2048x1) zero_offsets, View.ld_unit_zero (S := S1x256) zero_offsets,
    View.ld_unit_zero (S := S256x1024) zero_offsets, View.ld_unit_zero (S := S1x1024) zero_offsets]
  obtain ⟨-, -, -, -, -, -, -, -, -, -, f50, f51⟩ := block_indices t
  funext y
  obtain ⟨p, q, rfl⟩ : ∃ (p : Fin 2048) (q : Fin 1024), y = ix2 p q := ⟨y 0, y 1, eq_ix2 y⟩
  show k0_pay1 (iblk m c 0 t) (iblk m c 1 t) (iblk m c 2 t) (iblk m c 3 t) (iblk m c 4 t) (ix2 p q)
    = result m c (((cfg0.win 5).blk t).view.emb (ix2 p q))
  have he : ((cfg0.win 5).blk t).view.emb (ix2 p q) = ix2 (rowAt t p) q := by
    funext a; apply Fin.ext
    match a with
    | ⟨0, _⟩ => show win0_5.index t (0 : Fin 2) * 2048 + 1 * p.val = t.val * 2048 + p.val; rw [f50]; omega
    | ⟨1, _⟩ => show win0_5.index t (1 : Fin 2) * 1024 + 1 * q.val = q.val; rw [f51]; omega
  rw [he]
  exact entry_eq _ _ _ _ _ _ _ _ _ _ p q (rowAt t p) (blk_times m c t p) (blk_reduce_w m c t) (blk_reduce_b m c t)
    (fun r => blk_expand_w m c t r q) (blk_expand_b m c t q)

/-- An index of the result is in point t's block iff each coordinate is in the block's range on its axis. -/
theorem mem_blk (t : Fin cfg0.N) (i : S262144x1024.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v6).slice (win0_5.rect t)).set ↔ _
  rw [View.set_slice_whole, Rect.mem_set_unit]
  exact Iff.rfl

/-- Every entry of the result lies in the block of the point its row selects. -/
theorem cover (i : S262144x1024.Idx) :
    ∃ t : Fin cfg0.N, (cfg0.win 5).flush t = true ∧ i ∈ ((cfg0.win 5).blk t).view.set := by
  have hi0 : (i 0).val < 262144 := (i 0).isLt
  have hi1 : (i 1).val < 1024 := (i 1).isLt
  have hN : cfg0.N = 128 := N_0
  let t : Fin cfg0.N := ⟨(i 0).val / 2048, by rw [hN]; omega⟩
  obtain ⟨-, -, -, -, -, -, -, -, -, -, f50, f51⟩ := block_indices t
  have ht : t.val = (i 0).val / 2048 := rfl
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048
              rw [f50, ht]; omega
  | ⟨1, _⟩ => show win0_5.index t (1 : Fin 2) * 1024 ≤ (i 1).val ∧ (i 1).val < win0_5.index t (1 : Fin 2) * 1024 + 1024
              rw [f51]; omega

/-- After the run the result array is the encoding of the arguments as launched. -/
theorem final (c : Dev nD) : (dats m 0 c).arrAt 5 cfg0.N = result m c :=
  (dats m 0 c).arrAt_eq_of_cover 5 (result m c) (fun t _ => flushed_eq m c t) cover

/-- The kernel's run: every weakly fair execution terminates with the result array at the encoding and the
    arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefEncoding.lean ====
/-
  The reference computes the encoding.

  Read one operation at a time, the reference's hidden activation at (n, r) is the rectified cosine of
  quantise(t n) · w1(r, 0) + b1(r): its first product contracts an axis of extent one, so the sum has the single
  term k = 0.  Its result at (n, d) is then the sum over r of hidden(n, r) · w3(d, r) plus b4(d), which is the
  encoding's expression with the transposed weights read back at (r, d).
-/
import proofs.«170090_j352187318328_2_alg».proof.Proof.Gen.ReferenceIdeal.Read
import proofs.«170090_j352187318328_2_alg».proof.Proof.Encoding

noncomputable section

namespace Cert.ReferenceIdeal.Encoded

open Cert.ReferenceIdeal Cert.ReferenceIdeal.Read Idealize.ShloMosaic Idealize.ShloMosaic.ValueIdx
open Cert.TimeEncoding Cert.RowDot

/-- The reference's rectified hidden activation at (n, r) is hidden unit r of timestamp n. -/
theorem hidden_apply (x0 : (⟨S262144, .f32⟩ : BufTy).Contents (Elt Ideal)) (x1 : (⟨S256x1, .f32⟩ : BufTy).Contents (Elt Ideal))
    (x2 : (⟨S256, .f32⟩ : BufTy).Contents (Elt Ideal)) (n : Fin 262144) (r : Fin 256) :
    val_main_v12 (F := Ideal) x0 x1 x2 (ix2 n r) = hiddenRow x1 x2 (x0 (ix1 n)) r := by
  have e5 : idx_main_v5 (lidx_main_v7 (ix2 n r) 0) = ix1 n := funext fun a => match a with | ⟨0, _⟩ => rfl
  have e6 : idx_main_v6 (ridx_main_v7 (ix2 n r) 0) = ix2 r (0 : Fin 1) :=
    funext fun a => match a with | ⟨0, _⟩ => rfl | ⟨1, _⟩ => rfl
  have e8 : idx_main_v8 (idx_main_v9 (ix2 n r)) = ix1 r := funext fun a => match a with | ⟨0, _⟩ => rfl
  rw [val_main_v12_apply, val_main_v11_apply, val_main_v10_apply, val_main_v7_apply, Fin.sum_univ_one,
    val_main_v5_apply, val_main_v4_apply, val_main_v2_apply, val_main_v1_apply, val_main_v0_apply, val_main_cst_apply,
    val_main_v3_apply, val_main_cst_0_apply, val_main_v6_apply, val_main_v9_apply, val_main_v8_apply,
    val_main_call0_v0_apply, val_main_call0_cst_apply, e5, e6, e8]
  rfl

/-- The reference's result is the encoding of its five arguments. -/
theorem result_eq (x0 : (⟨S262144, .f32⟩ : BufTy).Contents (Elt Ideal)) (x1 : (⟨S256x1, .f32⟩ : BufTy).Contents (Elt Ideal))
    (x2 : (⟨S256, .f32⟩ : BufTy).Contents (Elt Ideal)) (x3 : (⟨S1024x256, .f32⟩ : BufTy).Contents (Elt Ideal))
    (x4 : (⟨S1024, .f32⟩ : BufTy).Contents (Elt Ideal)) :
    val_main_v17 (F := Ideal) x0 x1 x2 x3 x4 = encoding x0 x1 x2 x3 x4 := by
  funext j
  obtain ⟨n, d, rfl⟩ : ∃ (n : Fin 262144) (d : Fin 1024), j = ix2 n d := ⟨j 0, j 1, eq_ix2 j⟩
  rw [val_main_v17_apply, val_main_v14_apply, val_main_v16_apply, val_main_v15_apply]
  unfold encoding rowDot
  refine congrArg₂ (fun a b : EReal => a + b) (Finset.sum_congr rfl fun k _ => ?_) ?_
  · have el : lidx_main_v14 (ix2 n d) k = ix2 n k := funext fun a => match a with | ⟨0, _⟩ => rfl | ⟨1, _⟩ => rfl
    have er : ridx_main_v14 (ix2 n d) k = ix2 k d := funext fun a => match a with | ⟨0, _⟩ => rfl | ⟨1, _⟩ => rfl
    rw [el, er, hidden_apply, val_main_v13_apply]
    exact congrArg₂ (fun a b : EReal => a * b) rfl
      (congrArg x3 (funext fun a => match a with | ⟨0, _⟩ => rfl | ⟨1, _⟩ => rfl))
  · exact congrArg x4 (funext fun a => match a with | ⟨0, _⟩ => rfl)

end Cert.ReferenceIdeal.Encoded

end
-- ==== Proof.lean ====
/-
  The kernel and its reference compute one function of their five arguments, over the exact (extended-real) values.

  Both programs take 262144 timestamps t, reducing weights w1 (256×1) and biases b1 (256), expanding weights w3
  (1024×256) and biases b4 (1024).  Each timestamp is rounded down to a multiple of the step s (the single-precision
  number nearest one tenth): τ = floor(t / s) · s.  Hidden unit r is max(cos(τ · w1(r, 0) + b1(r)), 0), and entry (n, d)
  of the result is the sum over the 256 hidden units of hidden(n, r) · w3(d, r), plus b4(d)
  (Proof/Encoding.lean states this once).

  The reference forms τ · w1 as a product contracting an axis of extent one — a sum with one term — and the second
  product as a whole 262144×256 by 256×1024 product (Proof/RefEncoding.lean).  The kernel handles 2048 timestamps
  per grid point: it broadcasts the column of quantised timestamps against the row of weights, multiplies the block
  of hidden units into the transposed weights from a zero accumulator, and adds the bias row (Proof/KernelBlock.lean);
  its 128 blocks of 2048 rows tile the result (Proof/KernelValue.lean, Proof/KernelRun.lean).  Entry by entry both
  are the same sum of the same 256 products in the same order, so no law of arithmetic beyond reading each operation
  at an index is needed, and the finiteness of the inputs is never used.  Changes of float format are the identity at
  these values, and the idealised kernel is the kernel's own text, so there is nothing to preserve.
-/
import proofs.«170090_j352187318328_2_alg».proof.Defs
import proofs.«170090_j352187318328_2_alg».proof.Proof.Gen.Kernel
import proofs.«170090_j352187318328_2_alg».proof.Proof.Gen.Kernel.Frame
import proofs.«170090_j352187318328_2_alg».proof.Proof.Gen.KernelIdeal
import proofs.«170090_j352187318328_2_alg».proof.Proof.Gen.KernelIdeal.Frame
import proofs.«170090_j352187318328_2_alg».proof.Proof.Gen.KernelIdeal.Value
import proofs.«170090_j352187318328_2_alg».proof.Proof.Gen.ReferenceIdeal
import proofs.«170090_j352187318328_2_alg».proof.Proof.Gen.ReferenceIdeal.Run
import proofs.«170090_j352187318328_2_alg».proof.Proof.Gen.ReferenceIdeal.Read
import proofs.«170090_j352187318328_2_alg».proof.Proof.Gen.Pre_finite_inputs
import proofs.«170090_j352187318328_2_alg».proof.Proof.KernelRun
import proofs.«170090_j352187318328_2_alg».proof.Proof.RefEncoding
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array ends at the encoding of its arguments
    and the reference's at the encoding of its own: the same array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Encoded.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
